-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S16384x16384 : Shape := ⟨2, ![16384, 16384]⟩
abbrev S16384 : Shape := ⟨1, ![16384]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S64x16384 .f32) (main_arg1 : FVec F S16384x16384 .f32) (main_arg2 : FVec F S16384 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S64x16384 : Shape := ⟨2, ![64, 16384]⟩
abbrev S16384x16384 : Shape := ⟨2, ![16384, 16384]⟩
abbrev S16384 : Shape := ⟨1, ![16384]⟩
abbrev S16384x64 : Shape := ⟨2, ![16384, 64]⟩
abbrev S16384x1 : Shape := ⟨2, ![16384, 1]⟩
abbrev S256x16384 : Shape := ⟨2, ![256, 16384]⟩
abbrev S256x1 : Shape := ⟨2, ![256, 1]⟩
abbrev S256x64 : Shape := ⟨2, ![256, 64]⟩

abbrev nBuf : Space → Nat
  | .hbm => 8
  | .vmem => 7
  | .smem => 0
  | _ => 0

abbrev bufTy : (tb : Table) → Fin (tcTables nBuf tb) → BufTy
  | .hbm, ⟨0, _⟩ => ⟨S64x16384, .f32⟩
  | .hbm, ⟨1, _⟩ => ⟨S16384x16384, .f32⟩
  | .hbm, ⟨2, _⟩ => ⟨S16384, .f32⟩
  | .hbm, ⟨3, _⟩ => ⟨S16384x64, .f32⟩
  | .hbm, ⟨4, _⟩ => ⟨S16384x64, .bf16⟩
  | .hbm, ⟨5, _⟩ => ⟨S16384x1, .f32⟩
  | .hbm, ⟨6, _⟩ => ⟨S16384x64, .f32⟩
  | .hbm, ⟨7, _⟩ => ⟨S64x16384, .f32⟩
  | .local _ .vmem, ⟨0, _⟩ => ⟨S16384x64, .bf16⟩
  | .local _ .vmem, ⟨1, _⟩ => ⟨S256x16384, .f32⟩
  | .local _ .vmem, ⟨2, _⟩ => ⟨S256x16384, .f32⟩
  | .local _ .vmem, ⟨3, _⟩ => ⟨S256x1, .f32⟩
  | .local _ .vmem, ⟨4, _⟩ => ⟨S256x1, .f32⟩
  | .local _ .vmem, ⟨5, _⟩ => ⟨S256x64, .f32⟩
  | .local _ .vmem, ⟨6, _⟩ => ⟨S256x64, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x16384_S16384x64_1_0 : S64x16384.Transposes [1, 0] S16384x64
  bitsLt_bf16_f32 : FTy.bits .bf16 < FTy.bits .f32
  shapeCasts_S16384_S16384x1 : S16384.ShapeCasts S16384x1
  inb_S256x16384_S256x16384_0_0 : ∀ a, (![0, 0] : Fin 2 → Nat) a + S256x16384.size a ≤ S256x16384.size a
  h_S256x16384 : 0 < S256x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S256x64_S256x64_0_0 : ∀ a, (![0, 0] : Fin 2 → Nat) a + S256x64.size a ≤ S256x64.size a
  h_S256x64 : 0 < S256x64.numel
  transposes_S16384x64_S64x16384_1_0 : S16384x64.Transposes [1, 0] S64x16384
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S16384x64.size a
  hwx0_0 : ∀ i : grid0.Coords, EltTy.bits .bf16 = 32 ∨ (Rect.block (s := S16384x64) S16384x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S16384x16384.size a
  hwx0_1 : ∀ i : grid0.Coords, EltTy.bits .f32 = 32 ∨ (Rect.block (s := S16384x16384) S256x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)

variable [Facts₀]

def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_v1) S16384x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x16384 : Shape := ⟨2, ![64, 16384]⟩
abbrev S16384x16384 : Shape := ⟨2, ![16384, 16384]⟩
abbrev S16384 : Shape := ⟨1, ![16384]⟩
abbrev S16384x64 : Shape := ⟨2, ![16384, 64]⟩
abbrev S1x16384 : Shape := ⟨2, ![1, 16384]⟩

abbrev nBuf : Space → Nat
  | .hbm => 9
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S16384x16384, .f32⟩
  | .hbm, ⟨2, _⟩ => ⟨S16384, .f32⟩
  | .hbm, ⟨3, _⟩ => ⟨S16384x64, .f32⟩
  | .hbm, ⟨4, _⟩ => ⟨S16384x64, .f32⟩
  | .hbm, ⟨5, _⟩ => ⟨S64x16384, .f32⟩
  | .hbm, ⟨6, _⟩ => ⟨S1x16384, .f32⟩
  | .hbm, ⟨7, _⟩ => ⟨S64x16384, .f32⟩
  | .hbm, ⟨8, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S64x16384_S16384x64_1_0 : S64x16384.Transposes [1, 0] S16384x64
  transposes_S16384x64_S64x16384_1_0 : S16384x64.Transposes [1, 0] S64x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Spec.lean ====
/-
  The linear layer `y = x · Wᵀ + bias` over the extended reals, written index by index.

  `x` is `[64, 16384]` (one row per sample), `W` is `[16384, 16384]` (one row per output feature) and `bias` has one
  entry per output feature. Entry `(b, n)` of the result is the inner product of row `n` of `W` with row `b` of `x`,
  plus `bias n`. The same numbers laid out feature-major — entry `(n, b)` — are the product of `W` with the
  transpose of `x` plus the bias as a column; `outT_swap` says the two layouts hold the same numbers. Only the
  order of the two coordinates changes: every sum keeps its terms and their order, so no law of the extended reals
  beyond reading a term at an index is used, and nothing needs the inputs to be finite.
-/
import Idealize.ShloMosaic.PureOps.Ideal
import Idealize.ShloMosaic.Lib.ValueIdx

open scoped BigOperators

noncomputable section

namespace Cert.Linear

open Idealize.ShloMosaic Idealize.ShloMosaic.ValueIdx

/-- The layer's result: entry `(b, n)` is `∑ k, W (n, k) · x (b, k)`, plus `bias n`. -/
def out (x : FVec Ideal ⟨2, ![64, 16384]⟩ .f32) (W : FVec Ideal ⟨2, ![16384, 16384]⟩ .f32)
    (bias : FVec Ideal ⟨1, ![16384]⟩ .f32) : FVec Ideal ⟨2, ![64, 16384]⟩ .f32 :=
  fun i => (∑ k : Fin 16384, W (ix2 (i 1) k) * x (ix2 (i 0) k)) + bias (ix1 (i 1))

/-- The feature-major layout, from a `[16384, 64]` right factor `xt` and a bias column `col`: entry `(n, b)` is
    `∑ k, W (n, k) · xt (k, b)`, plus `col (n, 0)`. -/
def outT (xt : FVec Ideal ⟨2, ![16384, 64]⟩ .bf16) (W : FVec Ideal ⟨2, ![16384, 16384]⟩ .f32)
    (col : FVec Ideal ⟨2, ![16384, 1]⟩ .f32) : FVec Ideal ⟨2, ![16384, 64]⟩ .f32 :=
  fun j => (∑ k : Fin 16384, W (ix2 (j 0) k) * xt (ix2 k (j 1))) + col (ix2 (j 0) (0 : Fin 1))

/-- When `xt` is the transpose of `x` and `col` is `bias` as a column, entry `(n, b)` of the feature-major layout is
    entry `(b, n)` of the layer's result. -/
theorem outT_swap (x : FVec Ideal ⟨2, ![64, 16384]⟩ .f32) (W : FVec Ideal ⟨2, ![16384, 16384]⟩ .f32)
    (bias : FVec Ideal ⟨1, ![16384]⟩ .f32) (xt : FVec Ideal ⟨2, ![16384, 64]⟩ .bf16)
    (col : FVec Ideal ⟨2, ![16384, 1]⟩ .f32)
    (hxt : ∀ (k : Fin 16384) (b : Fin 64), xt (ix2 k b) = x (ix2 b k))
    (hcol : ∀ n : Fin 16384, col (ix2 n (0 : Fin 1)) = bias (ix1 n)) (n : Fin 16384) (b : Fin 64) :
    outT xt W col (ix2 n b) = out x W bias (ix2 b n) := by
  show (∑ k : Fin 16384, W (ix2 n k) * xt (ix2 k b)) + col (ix2 n (0 : Fin 1))
    = (∑ k : Fin 16384, W (ix2 n k) * x (ix2 b k)) + bias (ix1 n)
  rw [hcol n]
  exact congrArg (· + bias (ix1 n)) (Finset.sum_congr rfl fun k _ => by rw [hxt k b])

end Cert.Linear

end
-- ==== Proof.Reference.lean ====
/-
  The reference computes the layer's result.

  The reference transposes `x`, multiplies `W` by it (a contraction over the shared axis of length 16384),
  transposes the product back, and adds `bias` repeated along the samples. Read at `(b, n)`: the transposes swap the
  two coordinates twice, so the product's entry is `∑ k, W (n, k) · x (b, k)`; the repeated bias reads `bias n`.
  That is `Linear.out` at `(b, n)`, term for term.
-/
import proofs.«143919_g71760313581734_cont_9to1_m_768_4_alg».proof.Proof.Gen.ReferenceIdeal.Read
import proofs.«143919_g71760313581734_cont_9to1_m_768_4_alg».proof.Proof.Spec

open scoped BigOperators

noncomputable section

namespace Cert.Linear.Reference

open Idealize.ShloMosaic Idealize.ShloMosaic.ValueIdx Cert.ReferenceIdeal Cert.ReferenceIdeal.Read

/-- The left factor's index in the product read at the transposed position `(n, b)`: row `n` of `W`, column `k`. -/
theorem left_index (b : Fin 64) (n k : Fin 16384) : lidx_main_v1 (idx_main_v2 (ix2 b n)) k = ix2 n k :=
  funext fun a => Fin.ext (by match a with | ⟨0, _⟩ => rfl | ⟨1, _⟩ => rfl)

/-- The right factor is the transpose of `x`: its entry `(k, b)` is `x (b, k)`. -/
theorem right_index (b : Fin 64) (n k : Fin 16384) :
    idx_main_v0 (ridx_main_v1 (idx_main_v2 (ix2 b n)) k) = ix2 b k :=
  funext fun a => Fin.ext (by match a with | ⟨0, _⟩ => rfl | ⟨1, _⟩ => rfl)

/-- The bias repeated along the samples reads `bias n` at `(b, n)`. -/
theorem bias_index (b : Fin 64) (n : Fin 16384) : idx_main_v3 (idx_main_v4 (ix2 b n)) = ix1 n :=
  funext fun a => Fin.ext (by match a with | ⟨0, _⟩ => rfl)

/-- The reference's last stage is the layer's result. -/
theorem stage_eq_out (x : FVec Ideal S64x16384 .f32) (W : FVec Ideal S16384x16384 .f32) (bias : FVec Ideal S16384 .f32) :
    val_main_v5 (F := Ideal) x W bias = Linear.out x W bias := by
  funext i
  obtain ⟨b, n, rfl⟩ : ∃ (b : Fin 64) (n : Fin 16384), i = ix2 b n := ⟨i 0, i 1, eq_ix2 i⟩
  rw [val_main_v5_apply, val_main_v2_apply, val_main_v1_apply, val_main_v4_apply, val_main_v3_apply]
  simp only [val_main_v0_apply, left_index, right_index, bias_index, Ideal.addf_def]
  rfl

end Cert.Linear.Reference

end
-- ==== Proof.LibMatmulZero.lean ====
/-
  A matrix unit's product into a zero accumulator, read at an index written by coordinates, over the extended reals.

  An `[m, k]` by `[k, n]` product accumulated into the all-zero `[m, n]` array is, at `(a, b)`, the plain sum
  `∑ c, A (a, c) · B (c, b)`: the accumulator contributes `0`, and the contracted axis is enumerated by `c : Fin k`.
-/
import Idealize.ShloMosaic.Lib.Pipeline.Value
import Idealize.ShloMosaic.Lib.ValueIdx
import Idealize.ShloMosaic.PureOps.Ideal.Laws

open scoped BigOperators

namespace Cert.LibMatmulZero

open Idealize.ShloMosaic Idealize.ShloMosaic.ValueIdx

/-- An `[m, k]` by `[k, n]` product into the zero array at `(a, b)`, whatever the record's well-formedness proof. -/
theorem matmul_zero_rows_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What one grid step stores, read at an entry.

  A step holds 256 rows of `W` (`rowsW`, `[256, 16384]`), the whole right factor (`xt`, `[16384, 64]`) and the
  matching 256 entries of the bias column (`col`, `[256, 1]`). It multiplies the rows by the right factor on the
  matrix unit into a zero accumulator and adds the column repeated along the 64 samples. At `(p, q)` this is
  `∑ k, rowsW (p, k) · xt (k, q)`, plus `col (p, 0)`: the narrowing of the rows to a shorter float format is the
  identity on the extended reals, the zero accumulator contributes nothing, and the two same-shape casts change nothing.
-/
import proofs.«143919_g71760313581734_cont_9to1_m_768_4_alg».proof.Proof.Gen.KernelIdeal.Skeleton
import proofs.«143919_g71760313581734_cont_9to1_m_768_4_alg».proof.Proof.LibMatmulZero
import proofs.«143919_g71760313581734_cont_9to1_m_768_4_alg».proof.Proof.LibColumn
import proofs.«143919_g71760313581734_cont_9to1_m_768_4_alg».proof.Proof.Spec
import Idealize.ShloMosaic.Lib.Pipeline.Value
import Idealize.ShloMosaic.Lib.ValueIdx

open scoped BigOperators

noncomputable section

namespace Cert.Linear.Payload

open Idealize.ShloMosaic Idealize.ShloMosaic.ValueIdx Cert.KernelIdeal Cert.KernelIdeal.Gen

/-- The step's one store at `(p, q)`: row `p` of the step's rows of `W` against column `q` of the right factor, plus the
    step's bias entry `p`. -/
theorem store_apply (rowsW : Vec Ideal S256x16384 .f32) (xt : Vec Ideal S16384x64 .bf16) (col : Vec Ideal S256x1 .f32)
    (p : Fin 256) (q : Fin 64) :
    k0_pay1 (F := Ideal) rowsW xt col (ix2 p q)
      = (∑ k : Fin 16384, rowsW (ix2 p k) * xt (ix2 k q)) + col (ix2 p (0 : Fin 1)) := by
  unfold k0_pay1
  rw [shapeCast_self, shapeCast_self]
  show matmul dot_S256x16384_S16384x64_S256x64_1_0_0_1_n_n none (truncf .bf16 rowsW bitsLt_bf16_f32) xt
        (constant (F := Ideal) S256x64 .f32 0x00000000#32) (ix2 p q)
      + broadcastTo S256x64 col broadcasts_S256x1_S256x64 (ix2 p q) = _
  rw [Cert.LibColumn.broadcastTo_a1_ab_apply]
  exact congrArg (· + col (ix2 p (0 : Fin 1)))
    (Cert.LibMatmulZero.matmul_zero_rows_apply dot_S256x16384_S16384x64_S256x64_1_0_0_1_n_n_wf none
      (truncf .bf16 rowsW bitsLt_bf16_f32) xt p q)

/-- When the step's rows of `W` are row `n` of the whole `W` at row `p`, its right factor is the whole right factor on
    column `q`, and its bias entry `p` is the whole column's entry `n`, what the step stores at `(p, q)` is the
    feature-major layout at `(n, q)`. -/
theorem store_entry (rowsW : Vec Ideal S256x16384 .f32) (xt : Vec Ideal S16384x64 .bf16) (col : Vec Ideal S256x1 .f32)
    (XT : FVec Ideal ⟨2, ![16384, 64]⟩ .bf16) (Wm : FVec Ideal ⟨2, ![16384, 16384]⟩ .f32)
    (Col : FVec Ideal ⟨2, ![16384, 1]⟩ .f32) (p : Fin 256) (q : Fin 64) (n : Fin 16384)
    (hW : ∀ k : Fin 16384, rowsW (ix2 p k) = Wm (ix2 n k))
    (hX : ∀ k : Fin 16384, xt (ix2 k q) = XT (ix2 k q))
    (hC : col (ix2 p (0 : Fin 1)) = Col (ix2 n (0 : Fin 1))) :
    k0_pay1 (F := Ideal) rowsW xt col (ix2 p q) = Linear.outT XT Wm Col (ix2 n q) := by
  refine (store_apply rowsW xt col p q).trans ?_
  show _ = (∑ k : Fin 16384, Wm (ix2 n k) * XT (ix2 k q)) + Col (ix2 n (0 : Fin 1))
  rw [hC]
  exact congrArg (· + Col (ix2 n (0 : Fin 1))) (Finset.sum_congr rfl fun k _ => by rw [hW k, hX k])

end Cert.Linear.Payload

end
-- ==== Proof.Region.lean ====
/-
  The array the grid leaves behind: the feature-major layout of the layer, from the region's own operands.

  The grid has 64 steps. Step `t` sees the whole right factor (its block never moves), rows `256·t … 256·t + 255` of `W`
  and the same rows of the bias column, and writes rows `256·t … 256·t + 255` of the `[16384, 64]` result. So what step `t`
  writes back is those rows of ONE whole-array function — `Linear.outT` of the three arrays as the region finds them —
  and since the 64 row blocks tile the 16384 rows (row `r` lies in the block of step `r / 256`), the array ends holding
  that function.
-/
import proofs.«143919_g71760313581734_cont_9to1_m_768_4_alg».proof.Proof.Gen.KernelIdeal.Frame
import proofs.«143919_g71760313581734_cont_9to1_m_768_4_alg».proof.Proof.Payload
import proofs.«143919_g71760313581734_cont_9to1_m_768_4_alg».proof.Proof.Spec
import Idealize.ShloMosaic.Lib.Pipeline.Value
import Idealize.ShloMosaic.Lib.ValueIdx

open scoped BigOperators

noncomputable section

namespace Cert.Linear.Region

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The body's accesses all start at the origin of their buffers. -/
theorem origin : (![0, 0] : Fin 2 → Nat) = fun _ => 0 := funext fun a => by fin_cases a <;> rfl

/-- Where each window's block sits at step `t`: the right factor's never moves; the rows of `W`, the bias column's rows
    and the result's rows are all block `t` along the first axis, and block `0` along the second. -/
theorem block_at : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every row block of the result is some step's. -/
theorem block_onto : ∀ q : Fin 64, ∃ t : Fin cfg0.N, win0_3.index t = ![q.val, 0] :=
  (by decide +kernel : ∀ q : Fin 64, ∃ t : Fin grid0.N, win0_3.index t = ![q.val, 0])

/-- The right factor's block at any step is the whole array. -/
theorem right_block (c : Dev nD) (t : Fin cfg0.N) (y : S16384x64.Idx) :
    (iblk m c 0 t : Vec Ideal S16384x64 .bf16) y = (V m c main_v1 : S16384x64.Idx → Elt Ideal .bf16) y := by
  obtain ⟨e0, e1, -⟩ := block_at t
  unfold iblk
  rw [View.read_apply]
  show V m c main_v1 _ = V m c main_v1 _
  congr 1
  funext a
  apply Fin.ext
  match a with
  | ⟨0, _⟩ => show win0_0.index t (0 : Fin 2) * 16384 + 1 * (y 0).val = (y 0).val; omega
  | ⟨1, _⟩ => show win0_0.index t (1 : Fin 2) * 64 + 1 * (y 1).val = (y 1).val; omega

/-- Row `p` of the block of `W` at step `t` is row `256·t + p` of `W`. -/
theorem rows_block (c : Dev nD) (t : Fin cfg0.N) (y : S256x16384.Idx) (k : S16384x16384.Idx)
    (h0 : (k 0).val = t.val * 256 + (y 0).val) (h1 : (k 1).val = (y 1).val) :
    (iblk m c 1 t : Vec Ideal S256x16384 .f32) y = (V m c main_arg1 : S16384x16384.Idx → Elt Ideal .f32) k := by
  obtain ⟨-, -, e0, e1, -⟩ := block_at t
  unfold iblk
  rw [View.read_apply]
  show V m c main_arg1 _ = V m c main_arg1 _
  congr 1
  funext a
  apply Fin.ext
  match a with
  | ⟨0, _⟩ => show win0_1.index t (0 : Fin 2) * 256 + 1 * (y 0).val = (k 0).val; omega
  | ⟨1, _⟩ => show win0_1.index t (1 : Fin 2) * 16384 + 1 * (y 1).val = (k 1).val; omega

/-- Entry `p` of the bias column's block at step `t` is entry `256·t + p` of the column. -/
theorem col_block (c : Dev nD) (t : Fin cfg0.N) (y : S256x1.Idx) (k : S16384x1.Idx)
    (h0 : (k 0).val = t.val * 256 + (y 0).val) (h1 : (k 1).val = (y 1).val) :
    (iblk m c 2 t : Vec Ideal S256x1 .f32) y = (V m c main_v2 : S16384x1.Idx → Elt Ideal .f32) k := by
  obtain ⟨-, -, -, -, e0, e1, -⟩ := block_at t
  unfold iblk
  rw [View.read_apply]
  show V m c main_v2 _ = V m c main_v2 _
  congr 1
  funext a
  apply Fin.ext
  match a with
  | ⟨0, _⟩ => show win0_2.index t (0 : Fin 2) * 256 + 1 * (y 0).val = (k 0).val; omega
  | ⟨1, _⟩ => show win0_2.index t (1 : Fin 2) * 1 + 1 * (y 1).val = (k 1).val; omega

/-- What step `t` stores at `(p, q)` is the feature-major layout at the index `i` whose row is `256·t + p` and whose
    column is `q`. -/
theorem step_entry (c : Dev nD) (t : Fin cfg0.N) (p : Fin 256) (q : Fin 64) (i : S16384x64.Idx)
    (h0 : (i 0).val = t.val * 256 + p.val) (h1 : (i 1).val = q.val) :
    k0_pay1 (F := Ideal) (iblk m c 1 t) (iblk m c 0 t) (iblk m c 2 t) (ix2 p q)
      = Linear.outT (V m c main_v1) (V m c main_arg1) (V m c main_v2) i := by
  obtain ⟨n, b, rfl⟩ : ∃ (n : Fin 16384) (b : Fin 64), i = ix2 n b := ⟨i 0, i 1, eq_ix2 i⟩
  obtain rfl : b = q := Fin.ext h1
  exact Payload.store_entry (iblk m c 1 t) (iblk m c 0 t) (iblk m c 2 t) (V m c main_v1) (V m c main_arg1)
    (V m c main_v2) p b n
    (fun k => rows_block m c t (ix2 p k) (ix2 n k) h0 rfl)
    (fun k => right_block m c t (ix2 k b))
    (col_block m c t (ix2 p (0 : Fin 1)) (ix2 n (0 : Fin 1)) h0 rfl)

/-- WHAT STEP `t` WRITES BACK is block `t` of the feature-major layout of the arrays as the region finds them. -/
theorem flushed_eq (c : Dev nD) (t : Fin cfg0.N) :
    (dats m 0 c).flushed 3 t = ((cfg0.win 3).blk t).view.read (Elt Ideal)
      (Linear.outT (V m c main_v1) (V m c main_arg1) (V m c main_v2)) := by
  show (cfg0.win 3).cut (grid0.coords t) ((dats m 0 c).after 3 t) = _
  rw [after0_3]
  unfold out0_3
  rw [View.canon_unit_zero origin]
  simp only [View.ld_unit_zero (S := S256x16384) origin, View.ld_unit_zero (S := S16384x64) origin,
    View.ld_unit_zero (S := S256x1) origin]
  obtain ⟨-, -, -, -, -, -, e0, e1⟩ := block_at t
  refine funext fun (j : S256x64.Idx) => ?_
  obtain ⟨p, q, rfl⟩ : ∃ (p : Fin 256) (q : Fin 64), j = ix2 p q := ⟨j 0, j 1, eq_ix2 j⟩
  show k0_pay1 (F := Ideal) (iblk m c 1 t) (iblk m c 0 t) (iblk m c 2 t) (ix2 p q)
    = Linear.outT (V m c main_v1) (V m c main_arg1) (V m c main_v2) (((cfg0.win 3).blk t).view.emb (ix2 p q))
  exact step_entry m c t p q (((cfg0.win 3).blk t).view.emb (ix2 p q))
    (by show win0_3.index t (0 : Fin 2) * 256 + 1 * p.val = t.val * 256 + p.val; omega)
    (by show win0_3.index t (1 : Fin 2) * 64 + 1 * q.val = q.val; omega)

/-- An index of the result is in step `t`'s block iff each coordinate is in the block's range on its axis. -/
theorem mem_block (t : Fin cfg0.N) (i : S16384x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v3).slice (win0_3.rect t)).set ↔ _
  rw [View.set_slice_whole, Rect.mem_set_unit]
  exact Iff.rfl

/-- The 64 row blocks tile the result: row `r` lies in the block of step `r / 256`, and every step writes back. -/
theorem covered (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ := block_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 64 ≤ (i 1).val ∧ (i 1).val < win0_3.index t (1 : Fin 2) * 64 + 64; omega

/-- THE ARRAY after the grid: the feature-major layout of the arrays as the region finds them. -/
theorem final (c : Dev nD) :
    (dats m 0 c).arrAt 3 cfg0.N = Linear.outT (V m c main_v1) (V m c main_arg1) (V m c main_v2) :=
  (dats m 0 c).arrAt_eq_of_cover 3 (Linear.outT (V m c main_v1) (V m c main_arg1) (V m c main_v2))
    (fun t _ => flushed_eq m c t) covered

end Cert.Linear.Region

end
-- ==== Proof.Whole.lean ====
/-
  The whole program around the grid: it ends with the layer's result.

  Before the grid the program transposes `x` (and narrows it to a shorter float format, the identity on the extended
  reals) and casts `bias` to a column; so the right factor the grid finds has `x (b, k)` at `(k, b)`, and the column has
  `bias n` at `(n, 0)`. `W` reaches the grid as launched. After the grid the program transposes the `[16384, 64]`
  array the grid left. That array is the feature-major layout `Linear.outT` of what the grid found (`Region.final`),
  and its transpose read at `(b, n)` is `Linear.outT … (n, b)`, which `Linear.outT_swap` identifies with
  `Linear.out x W bias (b, n)`.
-/
import proofs.«143919_g71760313581734_cont_9to1_m_768_4_alg».proof.Proof.Region
import proofs.«143919_g71760313581734_cont_9to1_m_768_4_alg».proof.Proof.LibColumn
import Idealize.ShloMosaic.Lib.StableHlo.Run
import Idealize.ShloMosaic.PureOps.Ideal

open scoped BigOperators

noncomputable section

namespace Cert.Linear.Whole

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The right factor the grid finds is the transpose of `x`: its entry `(k, b)` is `x (b, k)`. -/
theorem right_factor (c : Dev nD) (k : Fin 16384) (b : Fin 64) :
    (V m c main_v1 : S16384x64.Idx → Elt Ideal .bf16) (ix2 k b)
      = (m ((c : Thread nD τ).loc main_arg0) : S64x16384.Idx → Elt Ideal .f32) (ix2 b k) := by
  have e : @Eq (FVec Ideal S16384x64 .bf16) (V m c main_v1)
      (truncf .bf16 (transpose S16384x64 [1, 0] (m ((c : Thread nD τ).loc main_arg0))
        transposes_S64x16384_S16384x64_1_0) bitsLt_bf16_f32) := by
    show StableHlo.after hostOps0 (fun b => m (c, b)) (Proc.devRef .tc main_v1) = _
    after_results
  refine (congrFun e (ix2 k b)).trans ?_
  show transpose S16384x64 [1, 0] (m ((c : Thread nD τ).loc main_arg0)) transposes_S64x16384_S16384x64_1_0 (ix2 k b) = _
  exact transpose_apply [1, 0] _ transposes_S64x16384_S16384x64_1_0 (ix2 k b) (ix2 b k) (fun a => match a with
    | ⟨0, _⟩ => rfl
    | ⟨1, _⟩ => rfl)

/-- The bias column the grid finds is `bias` as a column: its entry `(n, 0)` is `bias n`. -/
theorem bias_column (c : Dev nD) (n : Fin 16384) :
    (V m c main_v2 : S16384x1.Idx → Elt Ideal .f32) (ix2 n (0 : Fin 1))
      = (m ((c : Thread nD τ).loc main_arg2) : S16384.Idx → Elt Ideal .f32) (ix1 n) := by
  have e : @Eq (FVec Ideal S16384x1 .f32) (V m c main_v2)
      (shapeCast S16384x1 (m ((c : Thread nD τ).loc main_arg2)) shapeCasts_S16384_S16384x1) := by
    show StableHlo.after hostOps0 (fun b => m (c, b)) (Proc.devRef .tc main_v2) = _
    after_results
    rfl
  exact (congrFun e (ix2 n (0 : Fin 1))).trans
    (Cert.LibColumn.shapeCast_a_a1_apply (m ((c : Thread nD τ).loc main_arg2)) shapeCasts_S16384_S16384x1 n (0 : Fin 1))

/-- What the program's last line leaves in its result: the transpose of the feature-major layout the grid left. -/
theorem tail_eq (c : Dev nD) :
    @Eq (FVec Ideal S64x16384 .f32) (Pipeline.afterTail₀ cfgs (dats m) 0 (V0 m) [hostOps1] c main_v4)
      (transpose S64x16384 [1, 0] (Linear.outT (V m c main_v1) (V m c main_arg1) (V m c main_v2))
        transposes_S16384x64_S64x16384_1_0) := by
  unfold Pipeline.afterTail₀
  show StableHlo.after hostOps1 _ (Proc.devRef .tc main_v4) = _
  after_results
  exact congrArg (fun A : FVec Ideal S16384x64 .f32 => transpose S64x16384 [1, 0] A transposes_S16384x64_S64x16384_1_0)
    ((Pipeline.withArrays_arr spec0 launch0.win.arr_inj c _ _ 3).trans (Region.final m c))

/-- The program's result is the layer's result of the arguments as launched. -/
theorem result_eq (c : Dev nD) :
    @Eq (FVec Ideal S64x16384 .f32) (Pipeline.afterTail₀ cfgs (dats m) 0 (V0 m) [hostOps1] c main_v4)
      (Linear.out (m ((c : Thread nD τ).loc main_arg0)) (m ((c : Thread nD τ).loc main_arg1))
        (m ((c : Thread nD τ).loc main_arg2))) := by
  refine (tail_eq m c).trans ?_
  funext i
  obtain ⟨b, n, rfl⟩ : ∃ (b : Fin 64) (n : Fin 16384), i = ix2 b n := ⟨i 0, i 1, eq_ix2 i⟩
  refine (transpose_apply [1, 0] _ transposes_S16384x64_S64x16384_1_0 (ix2 b n) (ix2 n b) (fun a => match a with
    | ⟨0, _⟩ => rfl
    | ⟨1, _⟩ => rfl)).trans ?_
  rw [V_main_arg1 m c]
  exact Linear.outT_swap (m ((c : Thread nD τ).loc main_arg0)) (m ((c : Thread nD τ).loc main_arg1))
    (m ((c : Thread nD τ).loc main_arg2)) (V m c main_v1) (V m c main_v2)
    (fun k b => right_factor m c k b) (fun n => bias_column m c n) n b

/-- THE RUN: every weakly fair execution of the program terminates with its result at the layer's result of the
    arguments, and the arguments unchanged. -/
theorem run : θ_run defs (onTc (τ := τ) (main (F := Ideal))) ⟨m, fun _ => 0, ρ⟩ fun r => ∀ c : Dev nD,
      r.2.mem ((c.tc : Thread nD τ).loc main_v4)
        = Linear.out (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Linear.Whole

end
-- ==== Proof.lean ====
/-
  A linear layer `y = x · Wᵀ + bias` (`x` of 64 samples by 16384 features, `W` square of side 16384), computed two ways
  that agree on the extended reals.

  The kernel works feature-major: it transposes `x`, sends 256 rows of `W` at a time through the matrix unit against
  the whole transposed `x`, adds the matching 256 entries of `bias` as a column, and transposes the `[16384, 64]`
  result at the end. The reference multiplies `W` by the transposed `x` in one product, transposes, and adds `bias`
  along the samples. Entry `(b, n)` of either is `∑ k, W (n, k) · x (b, k)`, plus `bias n`: the same terms in the same
  order, so the two results are equal with no appeal to the inputs being finite (narrowing a float to a shorter
  format is the identity here, and a product into a zero accumulator is the plain sum). The kernel's idealization
  rewrote nothing, so it is its sanctioned idealization trivially; the three programs run and keep their arguments.
-/
import proofs.«143919_g71760313581734_cont_9to1_m_768_4_alg».proof.Defs
import proofs.«143919_g71760313581734_cont_9to1_m_768_4_alg».proof.Proof.Gen.Kernel
import proofs.«143919_g71760313581734_cont_9to1_m_768_4_alg».proof.Proof.Gen.Kernel.Skeleton
import proofs.«143919_g71760313581734_cont_9to1_m_768_4_alg».proof.Proof.Gen.Kernel.Launch
import proofs.«143919_g71760313581734_cont_9to1_m_768_4_alg».proof.Proof.Gen.Kernel.Points
import proofs.«143919_g71760313581734_cont_9to1_m_768_4_alg».proof.Proof.Gen.Kernel.Frame
import proofs.«143919_g71760313581734_cont_9to1_m_768_4_alg».proof.Proof.Gen.KernelIdeal
import proofs.«143919_g71760313581734_cont_9to1_m_768_4_alg».proof.Proof.Gen.KernelIdeal.Skeleton
import proofs.«143919_g71760313581734_cont_9to1_m_768_4_alg».proof.Proof.Gen.KernelIdeal.Launch
import proofs.«143919_g71760313581734_cont_9to1_m_768_4_alg».proof.Proof.Gen.KernelIdeal.Points
import proofs.«143919_g71760313581734_cont_9to1_m_768_4_alg».proof.Proof.Gen.KernelIdeal.Frame
import proofs.«143919_g71760313581734_cont_9to1_m_768_4_alg».proof.Proof.Gen.ReferenceIdeal
import proofs.«143919_g71760313581734_cont_9to1_m_768_4_alg».proof.Proof.Gen.Pre_finite_inputs
import proofs.«143919_g71760313581734_cont_9to1_m_768_4_alg».proof.Proof.Gen.ReferenceIdeal.Run
import proofs.«143919_g71760313581734_cont_9to1_m_768_4_alg».proof.Proof.Gen.ReferenceIdeal.Read
import proofs.«143919_g71760313581734_cont_9to1_m_768_4_alg».proof.Proof.Reference
import proofs.«143919_g71760313581734_cont_9to1_m_768_4_alg».proof.Proof.Whole
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `Linear.out` of their arguments, and the arguments agree. -/
theorem algebraic : Cert.algebraic_KernelIdeal_ReferenceIdeal := by
  intro m ρ m' ρ' _ hagree
  refine ⟨fun c => Cert.Linear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Linear.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Linear.Reference.stage_eq_out, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
